-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x15x3 : Shape := ⟨3, ![500000, 15, 3]⟩
abbrev S_ : Shape := ⟨0, ![]⟩

class Facts : Prop where
  bcast_S_S500000x15x3 : S_.BroadcastsInDim S500000x15x3 (![] : Fin 0 → Fin S500000x15x3.rank)
  reducesTo_S500000x15x3_S_d0_1_2 : S500000x15x3.ReducesTo [0, 1, 2] S_
  h_S_ : 0 < S_.numel

variable [Facts]

def fn {F : FTy → Type} [FloatOps F] (main_arg0 : FVec F S500000x15x3 .f32) : IVec S_ 1 :=
  let main_v0 : FVec F S500000x15x3 .f32 := Host.absf main_arg0
  let main_cst : FVec F S_ .f32 := constant S_ .f32 0x7F800000#32
  let main_v1 : FVec F S500000x15x3 .f32 := broadcastInDim S500000x15x3 ![] bcast_S_S500000x15x3 main_cst
  let main_v2 : IVec S500000x15x3 1 := cmpf .olt main_v0 main_v1
  let main_c : IVec S_ 1 := constantI S_ 1 1#1
  let main_v3 : IVec S_ 1 := (fun x v => Host.reduce IntOp.andi x v reducesTo_S500000x15x3_S_d0_1_2 h_S_) main_v2 main_c
  main_v3
-- ==== Kernel.lean ====
abbrev S500000x15x3 : Shape := ⟨3, ![500000, 15, 3]⟩
abbrev S45x45 : Shape := ⟨2, ![45, 45]⟩
abbrev S45x15 : Shape := ⟨2, ![45, 15]⟩
abbrev S500000x45 : Shape := ⟨2, ![500000, 45]⟩
abbrev S500000x15 : Shape := ⟨2, ![500000, 15]⟩
abbrev S5000x45 : Shape := ⟨2, ![5000, 45]⟩
abbrev S5000x15 : Shape := ⟨2, ![5000, 15]⟩
abbrev S500000x15x1 : Shape := ⟨3, ![500000, 15, 1]⟩

abbrev nBuf : Space → Nat
  | .hbm => 6
  | .vmem => 6
  | .smem => 0
  | _ => 0

abbrev bufTy : (tb : Table) → Fin (tcTables nBuf tb) → BufTy
  | .hbm, ⟨0, _⟩ => ⟨S500000x15x3, .f32⟩
  | .hbm, ⟨1, _⟩ => ⟨S45x45, .f32⟩
  | .hbm, ⟨2, _⟩ => ⟨S45x15, .f32⟩
  | .hbm, ⟨3, _⟩ => ⟨S500000x45, .f32⟩
  | .hbm, ⟨4, _⟩ => ⟨S500000x15, .f32⟩
  | .hbm, ⟨5, _⟩ => ⟨S500000x15x1, .f32⟩
  | .local _ .vmem, ⟨0, _⟩ => ⟨S5000x45, .f32⟩
  | .local _ .vmem, ⟨1, _⟩ => ⟨S5000x45, .f32⟩
  | .local _ .vmem, ⟨2, _⟩ => ⟨S45x45, .f32⟩
  | .local _ .vmem, ⟨3, _⟩ => ⟨S45x15, .f32⟩
  | .local _ .vmem, ⟨4, _⟩ => ⟨S5000x15, .f32⟩
  | .local _ .vmem, ⟨5, _⟩ => ⟨S5000x15, .f32⟩
  | _, _ => ⟨S500000x15x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x45 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S45x45 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S45x15 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x15 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S500000x15x3_S500000x45 : S500000x15x3.ShapeCasts S500000x45
  inb_S5000x45_S5000x45_0_0 : ∀ a, (![0, 0] : Fin 2 → Nat) a + S5000x45.size a ≤ S5000x45.size a
  h_S5000x45 : 0 < S5000x45.numel
  shapeCasts_S5000x45_S5000x45 : S5000x45.ShapeCasts S5000x45
  inb_S45x45_S45x45_0_0 : ∀ a, (![0, 0] : Fin 2 → Nat) a + S45x45.size a ≤ S45x45.size a
  h_S45x45 : 0 < S45x45.numel
  inb_S45x15_S45x15_0_0 : ∀ a, (![0, 0] : Fin 2 → Nat) a + S45x15.size a ≤ S45x15.size a
  h_S45x15 : 0 < S45x15.numel
  inb_S5000x15_S5000x15_0_0 : ∀ a, (![0, 0] : Fin 2 → Nat) a + S5000x15.size a ≤ S5000x15.size a
  h_S5000x15 : 0 < S5000x15.numel
  bcast_S500000x15_S500000x15x1_0_1 : S500000x15.BroadcastsInDim S500000x15x1 (![0, 1] : Fin 2 → Fin S500000x15x1.rank)
  dot_S5000x45_S45x45_S5000x45_1_0_0_1_n_n_wf : DotDims.WF S5000x45 S45x45 S5000x45 [1] [0] [0] [1] [] []
  dot_S5000x45_S45x15_S5000x15_1_0_0_1_n_n_wf : DotDims.WF S5000x45 S45x15 S5000x15 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x45.size a ≤ S500000x45.size a
  hwx0_0 : ∀ i : grid0.Coords, EltTy.bits .f32 = 32 ∨ (Rect.block (s := S500000x45) S5000x45.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S45x45.size a ≤ S45x45.size a
  hwx0_1 : ∀ i : grid0.Coords, EltTy.bits .f32 = 32 ∨ (Rect.block (s := S45x45) S45x45.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S45x15.size a ≤ S45x15.size a
  hwx0_2 : ∀ i : grid0.Coords, EltTy.bits .f32 = 32 ∨ (Rect.block (s := S45x15) S45x15.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x15.size a ≤ S500000x15.size a
  hwx0_3 : ∀ i : grid0.Coords, EltTy.bits .f32 = 32 ∨ (Rect.block (s := S500000x15) S5000x15.size (cc0_transform_3 i) (hinb0_3 i)).WholeWords (EltTy.packing .f32)

variable [Facts₀]

def dot_S5000x45_S45x45_S5000x45_1_0_0_1_n_n : DotDims S5000x45 S45x45 S5000x45 where
  lhsContracting := [1]
  rhsContracting := [0]
  lhsNonContracting := [0]
  rhsNonContracting := [1]
  lhsBatch := []
  rhsBatch := []
  wf := dot_S5000x45_S45x45_S5000x45_1_0_0_1_n_n_wf
def dot_S5000x45_S45x15_S5000x15_1_0_0_1_n_n : DotDims S5000x45 S45x15 S5000x15 where
  lhsContracting := [1]
  rhsContracting := [0]
  lhsNonContracting := [0]
  rhsNonContracting := [1]
  lhsBatch := []
  rhsBatch := []
  wf := dot_S5000x45_S45x15_S5000x15_1_0_0_1_n_n_wf

abbrev win0_0 : Pipeline.Window sig grid0 :=
  Pipeline.Window.ofSpec (Memref.whole main_v0) S5000x45.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_cst) S45x45.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_cst_0) S45x15.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x15.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x15x3 : Shape := ⟨3, ![500000, 15, 3]⟩
abbrev S15 : Shape := ⟨1, ![15]⟩
abbrev S_ : Shape := ⟨0, ![]⟩
abbrev S15x1 : Shape := ⟨2, ![15, 1]⟩
abbrev S500000x15 : Shape := ⟨2, ![500000, 15]⟩
abbrev S500000x15x1 : Shape := ⟨3, ![500000, 15, 1]⟩

abbrev nBuf : Space → Nat
  | .hbm => 17
  | .vmem => 0
  | .smem => 0
  | _ => 0

abbrev bufTy : (tb : Table) → Fin (tcTables nBuf tb) → BufTy
  | .hbm, ⟨0, _⟩ => ⟨S500000x15x3, .f32⟩
  | .hbm, ⟨1, _⟩ => ⟨S15, .i32⟩
  | .hbm, ⟨2, _⟩ => ⟨S_, .i32⟩
  | .hbm, ⟨3, _⟩ => ⟨S15, .i32⟩
  | .hbm, ⟨4, _⟩ => ⟨S15, .i1⟩
  | .hbm, ⟨5, _⟩ => ⟨S_, .i32⟩
  | .hbm, ⟨6, _⟩ => ⟨S15, .i32⟩
  | .hbm, ⟨7, _⟩ => ⟨S15, .i32⟩
  | .hbm, ⟨8, _⟩ => ⟨S15, .i32⟩
  | .hbm, ⟨9, _⟩ => ⟨S15x1, .i32⟩
  | .hbm, ⟨10, _⟩ => ⟨S500000x15x3, .f32⟩
  | .hbm, ⟨11, _⟩ => ⟨S500000x15x3, .f32⟩
  | .hbm, ⟨12, _⟩ => ⟨S500000x15x3, .f32⟩
  | .hbm, ⟨13, _⟩ => ⟨S_, .f32⟩
  | .hbm, ⟨14, _⟩ => ⟨S500000x15, .f32⟩
  | .hbm, ⟨15, _⟩ => ⟨S500000x15, .f32⟩
  | .hbm, ⟨16, _⟩ => ⟨S500000x15x1, .f32⟩
  | _, _ => ⟨S500000x15x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_v0 : Ref sig .tc := ⟨.hbm, 3, rfl⟩
abbrev main_v1 : Ref sig .tc := ⟨.hbm, 4, rfl⟩
abbrev main_c_1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]

class Facts₀ : Prop where
  bcast_S_S15 : S_.BroadcastsInDim S15 (![] : Fin 0 → Fin S15.rank)
  bcast_S15_S15x1_0 : S15.BroadcastsInDim S15x1 (![0] : Fin 1 → Fin S15x1.rank)
  reducesTo_S500000x15x3_S500000x15_d2 : S500000x15x3.ReducesTo [2] S500000x15
  h_S_ : 0 < S_.numel
  bcast_S500000x15_S500000x15x1_0_1 : S500000x15.BroadcastsInDim S500000x15x1 (![0, 1] : Fin 2 → Fin S500000x15x1.rank)
  gather_S500000x15x3_S15x1_S500000x15x3_02_1_n_n_1_1_50000013_wf : GatherDims.WF S500000x15x3 S15x1 S500000x15x3 [0, 2] [1] [] [1] [] 1 ![500000, 1, 3]

variable [Facts₀]

def gather_S500000x15x3_S15x1_S500000x15x3_02_1_n_n_1_1_50000013 : GatherDims S500000x15x3 S15x1 S500000x15x3 where
  offsetDims := [0, 2]
  collapsedSliceDims := [1]
  operandBatchingDims := []
  startIndicesBatchingDims := []
  startIndexMap := [1]
  indexVectorDim := 1
  sliceSizes := ![500000, 1, 3]
  wf := gather_S500000x15x3_S15x1_S500000x15x3_02_1_n_n_1_1_50000013_wf

class Facts : Prop extends Facts₀ where

variable [Facts]
-- ==== Proof.Spec.lean ====
/-
  The limb lengths of a 15-joint skeleton, and the law that lets two one-hot matrix products compute them.

  A pose is fifteen joints of three coordinates each. Joint k has a parent joint `par k`, and the length of limb k
  is the Euclidean distance between the joint and its parent: the square root of the sum over the three
  coordinates of the squared coordinate differences.

  A pose can also be laid out as one row of 45 numbers, coordinate d of joint k at position 3k + d. In that layout
  "take each joint's parent" is a product with a 45 × 45 matrix holding a single one in every column (column j has
  its one in the row of the same coordinate of the parent joint), and "add up the three coordinates of joint k" is
  a product with a 45 × 15 matrix whose column k holds ones in the three rows of joint k. Over the extended reals
  a product with zero is zero and a product with one changes nothing, also at the infinities, so each of those
  matrix products collapses to the entries its ones select: no finiteness is needed.
-/
import Idealize.ShloMosaic.Lib.ValueIdx
import Idealize.ShloMosaic.PureOps.Ideal

noncomputable section

namespace Cert.Limb

open Idealize.ShloMosaic Idealize.ShloMosaic.ValueIdx

/-- The parent of each joint. -/
def par : Fin 15 → Fin 15 := ![0, 0, 1, 1, 1, 3, 4, 5, 6, 2, 2, 9, 10, 11, 12]

/-- The joint a position of the flat row belongs to. -/
def jointOf (j : Fin 45) : Fin 15 := ⟨j.val / 3, by omega⟩
/-- The coordinate a position of the flat row holds. -/
def compOf (j : Fin 45) : Fin 3 := ⟨j.val % 3, by omega⟩
/-- The position of coordinate `d` of joint `k` in the flat row. -/
def flat (k : Fin 15) (d : Fin 3) : Fin 45 := ⟨3 * k.val + d.val, by omega⟩

theorem jointOf_flat (k : Fin 15) (d : Fin 3) : jointOf (flat k d) = k := by
  apply Fin.ext; show (3 * k.val + d.val) / 3 = k.val; omega
theorem compOf_flat (k : Fin 15) (d : Fin 3) : compOf (flat k d) = d := by
  apply Fin.ext; show (3 * k.val + d.val) % 3 = d.val; omega
theorem flat_jointOf_compOf (j : Fin 45) : flat (jointOf j) (compOf j) = j := by
  apply Fin.ext; show 3 * (j.val / 3) + j.val % 3 = j.val; omega

/-- The flat row's positions are the pairs (joint, coordinate). -/
def flatEquiv : Fin 15 × Fin 3 ≃ Fin 45 where
  toFun p := flat p.1 p.2
  invFun j := (jointOf j, compOf j)
  left_inv p := Prod.ext (jointOf_flat p.1 p.2) (compOf_flat p.1 p.2)
  right_inv j := flat_jointOf_compOf j

/-- The position holding the same coordinate of the parent joint. -/
def src (j : Fin 45) : Fin 45 := flat (par (jointOf j)) (compOf j)

/-- THE LAW. For a pose `a` laid out flat, a matrix `P` with its one ones at (src j, j) and a matrix `S` with its
    ones at (j, joint of j): the second product, of the squared differences between the row and the first
    product, is at joint `k` the sum over the three coordinates of the squared differences between joint `k`
    and its parent. -/
theorem onehot_limb (a : Fin 15 → Fin 3 → EReal) (P : Fin 45 → Fin 45 → EReal) (S : Fin 45 → Fin 15 → EReal)
    (hP : ∀ i j, P i j = if i = src j then 1 else 0) (hS : ∀ j k, S j k = if jointOf j = k then 1 else 0) (k : Fin 15) :
    ∑ j : Fin 45, ((a (jointOf j) (compOf j) - ∑ i : Fin 45, a (jointOf i) (compOf i) * P i j)
        * (a (jointOf j) (compOf j) - ∑ i : Fin 45, a (jointOf i) (compOf i) * P i j)) * S j k
      = ∑ d : Fin 3, (a k d - a (par k) d) * (a k d - a (par k) d) := by
  have h1 : ∀ j : Fin 45, ∑ i : Fin 45, a (jointOf i) (compOf i) * P i j = a (par (jointOf j)) (compOf j) := by
    intro j
    simp only [hP, mul_ite, mul_one, mul_zero]
    rw [Finset.sum_ite_eq' Finset.univ (src j) fun i => a (jointOf i) (compOf i)]
    rw [if_pos (Finset.mem_univ _)]
    show a (jointOf (flat (par (jointOf j)) (compOf j))) (compOf (flat (par (jointOf j)) (compOf j))) = _
    rw [jointOf_flat, compOf_flat]
  simp only [h1, hS, mul_ite, mul_one, mul_zero]
  rw [← Equiv.sum_comp flatEquiv, Fintype.sum_prod_type]
  show ∑ k' : Fin 15, ∑ d : Fin 3, (if jointOf (flat k' d) = k then
      (a (jointOf (flat k' d)) (compOf (flat k' d)) - a (par (jointOf (flat k' d))) (compOf (flat k' d)))
        * (a (jointOf (flat k' d)) (compOf (flat k' d)) - a (par (jointOf (flat k' d))) (compOf (flat k' d))) else 0) = _
  simp only [jointOf_flat, compOf_flat]
  rw [Finset.sum_eq_single k]
  · simp only [if_true]
  · intro k' _ hk; simp only [if_neg hk, Finset.sum_const_zero]
  · intro h; exact absurd (Finset.mem_univ k) h

/-! ## The result as one function of the pose array -/

/-- The squared difference of coordinate `d` between joint `k` and its parent, in pose `b` of the array. -/
def dsq (x : (⟨3, ![500000, 15, 3]⟩ : Shape).Idx → EReal) (b : Fin 500000) (k : Fin 15) (d : Fin 3) : EReal :=
  (x (ix3 b k d) - x (ix3 b (par k) d)) * (x (ix3 b k d) - x (ix3 b (par k) d))

/-- The limb lengths of every pose: at (b, k, 0) the distance between joint `k` of pose `b` and its parent. -/
def limbs (x : (⟨3, ![500000, 15, 3]⟩ : Shape).Idx → EReal) : (⟨3, ![500000, 15, 1]⟩ : Shape).Idx → EReal :=
  fun i => Ideal.sqrt (∑ d : Fin 3, dsq x (i 0) (i 1) d)

theorem limbs_apply (x : (⟨3, ![500000, 15, 3]⟩ : Shape).Idx → EReal) (b : Fin 500000) (k : Fin 15) (z : Fin 1) :
    limbs x (ix3 b k z) = Ideal.sqrt (∑ d : Fin 3, dsq x b k d) := rfl

/-- The float words the two tables are made of: one and zero. -/
theorem ofBits_one_f32 : Ideal.ofBits .f32 0x3F800000#32 = 1 := by
  simp [Ideal.ofBits, Ideal.ieee, -EReal.coe_mul]
  norm_num

end Cert.Limb

end
-- ==== Proof.KernelTables.lean ====
/-
  The two constant tables of the kernel's program, as the one-hot matrices they are.

  The 45 × 45 table, read row-major, holds the word of the float one at (i, j) exactly when row i is the position
  of the same coordinate of the parent of column j's joint, and the zero word everywhere else. The 45 × 15 table
  holds the word of one at (j, k) exactly when position j belongs to joint k. Both are finite statements about
  literal words, decided entry by entry; read as exact values the words are the numbers one and zero.
-/
import proofs.«153917_j53008486367482_2_alg».proof.KernelIdeal
import proofs.«153917_j53008486367482_2_alg».proof.Proof.Spec
import Idealize.ShloMosaic.PureOps.Ideal.Laws

noncomputable section

namespace Cert.KernelIdeal.Tables

open Idealize.ShloMosaic Cert.KernelIdeal Cert.Limb

/-- The parent-selection table's words. -/
theorem parent_words : ∀ i j : Fin 45,
    lit0t (i.val * 45 + j.val) = if i = src j then 0x3F800000#32 else 0x00000000#32 := by
  decide +kernel

/-- The coordinate-summing table's words. -/
theorem joint_words : ∀ (j : Fin 45) (k : Fin 15),
    lit1t (j.val * 15 + k.val) = if jointOf j = k then 0x3F800000#32 else 0x00000000#32 := by
  decide +kernel

/-- The parent-selection table's exact values: one at (src j, j), zero elsewhere. -/
theorem parent_value (i j : Fin 45) :
    Ideal.ofBits .f32 (lit0t (i.val * 45 + j.val)) = if i = src j then (1 : EReal) else 0 := by
  rw [parent_words]
  by_cases h : i = src j
  · rw [if_pos h, if_pos h]; exact ofBits_one_f32
  · rw [if_neg h, if_neg h]; exact Ideal.ofBits_zero_f32

/-- The coordinate-summing table's exact values: one at (j, joint of j), zero elsewhere. -/
theorem joint_value (j : Fin 45) (k : Fin 15) :
    Ideal.ofBits .f32 (lit1t (j.val * 15 + k.val)) = if jointOf j = k then (1 : EReal) else 0 := by
  rw [joint_words]
  by_cases h : jointOf j = k
  · rw [if_pos h, if_pos h]; exact ofBits_one_f32
  · rw [if_neg h, if_neg h]; exact Ideal.ofBits_zero_f32

end Cert.KernelIdeal.Tables

end
-- ==== Proof.KernelEntry.lean ====
/-
  What the kernel's program holds when its grid starts, and where each grid point's blocks sit.

  Before the grid the program writes its two constant tables and flattens the pose array [500000, 15, 3] to
  [500000, 45] without moving anything: entry (b, 3k + d) of the flat array is entry (b, k, d) of the argument.
  So on entry the table buffers hold their literal words read as floats, and the flat buffer holds the argument
  re-indexed row-major. Point t of the 100-point grid takes block row t of the flat array and of the result, and
  the whole of both tables.
-/
import proofs.«153917_j53008486367482_2_alg».proof.Proof.Gen.KernelIdeal.Frame
import proofs.«153917_j53008486367482_2_alg».proof.Proof.KernelTables
import proofs.«153917_j53008486367482_2_alg».proof.Proof.Spec
import Idealize.ShloMosaic.Lib.Pipeline.Value
import Idealize.ShloMosaic.Lib.ValueIdx
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.ValueIdx Idealize.ShloMosaic.StableHlo Cert.Limb

variable (m : (ℓ : Loc nD τ sig) → Buf (Elt Ideal) ℓ)

/-- On entry the parent-selection table's buffer holds its literal words, row-major, as floats. -/
theorem V_parentTable (c : Dev nD) :
    (V m c main_cst : S45x45.Idx → EReal) = fun i => Ideal.ofBits .f32 (lit0 (S45x45.rowMajor i)) := by
  show StableHlo.after hostOps0 (fun b => m (c, b)) (Proc.devRef .tc main_cst) = _
  after_results
  rfl

/-- On entry the coordinate-summing table's buffer holds its literal words, row-major, as floats. -/
theorem V_jointTable (c : Dev nD) :
    (V m c main_cst_0 : S45x15.Idx → EReal) = fun i => Ideal.ofBits .f32 (lit1 (S45x15.rowMajor i)) := by
  show StableHlo.after hostOps0 (fun b => m (c, b)) (Proc.devRef .tc main_cst_0) = _
  after_results
  rfl

/-- On entry the flat buffer holds the argument array re-indexed row-major. -/
theorem V_flat (c : Dev nD) :
    (V m c main_v0 : S500000x45.Idx → EReal)
      = shapeCast S500000x45 (m ((c : Thread nD τ).loc main_arg0)) shapeCasts_S500000x15x3_S500000x45 := by
  show StableHlo.after hostOps0 (fun b => m (c, b)) (Proc.devRef .tc main_v0) = _
  after_results
  rfl

/-- The block each window takes at point t: block row t of the flat array and of the result, block (0, 0) of
    both tables. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

end Cert.KernelIdeal.Entry

end
-- ==== Proof.LibPlainDot.lean ====
/-
  A plain two-dimensional contraction read as a sum over the contracted extent.

  A dot of an [M, K] operand with a [K, N] operand contracts the left operand's second axis with the right
  operand's first. Its contraction index has one coordinate, so the sum over contraction indices is a sum over
  `k : Fin K`, and the operands are read at (row, k) and (k, column). The four coordinate facts are hypotheses:
  for a record with literal dimension lists each of them holds by computation.
-/
import Idealize.ShloMosaic.Lib.ValueIdx
import Idealize.ShloMosaic.PureOps.Ideal.Laws

noncomputable section

namespace Cert.LibPlainDot

open Idealize.ShloMosaic Idealize.ShloMosaic.ValueIdx

/-- The contraction sum of a plain [M, K] × [K, N] dot at output index `j`, re-indexed by the one contracted
    coordinate: the left operand at (j 0, k) times the right operand at (k, j 1), summed over `k : Fin K`. -/
theorem plain_sum {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (lhs : (⟨2, ![M, K]⟩ : Shape).Idx → EReal) (rhs : (⟨2, ![K, N]⟩ : Shape).Idx → EReal) (j : (⟨2, ![M, N]⟩ : Shape).Idx) :
    ∑ k : D.contr.Idx, lhs (D.lhsIdx j k) * rhs (D.rhsIdx j k) = ∑ k : Fin K, lhs (ix2 (j 0) k) * rhs (ix2 k (j 1)) := by
  rw [← Equiv.sum_comp (contrEquiv1 D K hr hs).symm]
  refine Finset.sum_congr rfl fun k _ => ?_
  have e1 : D.lhsIdx j ((contrEquiv1 D K hr hs).symm k) = ix2 (j 0) k := by
    funext a; apply Fin.ext
    match a with
    | ⟨0, _⟩ => exact hl0 j _
    | ⟨1, _⟩ => exact (hl1 j _).trans (contrEquiv1_symm_val D K hr hs k)
  have e2 : D.rhsIdx j ((contrEquiv1 D K hr hs).symm k) = ix2 k (j 1) := by
    funext a; apply Fin.ext
    match a with
    | ⟨0, _⟩ => exact (hr0 j _).trans (contrEquiv1_symm_val D K hr hs k)
    | ⟨1, _⟩ => exact hr1 j _
  exact congrArg₂ (fun a b => lhs a * rhs b) e1 e2

/-- A matrix unit's product into the zero accumulator, at the exact values, is that sum. -/
theorem matmul_zero_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (lhs : FVec Ideal ⟨2, ![M, K]⟩ φ₁) (rhs : FVec Ideal ⟨2, ![K, N]⟩ φ₂) (j : (⟨2, ![M, N]⟩ : Shape).Idx) :
    FloatOps.matmul D prec lhs rhs (constant ⟨2, ![M, N]⟩ .f32 0x00000000#32) j = ∑ k : Fin K, lhs (ix2 (j 0) k) * rhs (ix2 k (j 1)) :=
  (Ideal.matmul_constant_zero_apply D prec lhs rhs j).trans (plain_sum D hr hs hl0 hl1 hr0 hr1 lhs rhs j)

/-- The host's dot_general, at the exact values, is the same sum. -/
theorem dotGeneral_plain {M K N : Nat} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (prec : Option ContractPrecision) (sched : HostSchedule) (lhs : FVec Ideal ⟨2, ![M, K]⟩ φ₁) (rhs : FVec Ideal ⟨2, ![K, N]⟩ φ₂)
    (j : (⟨2, ![M, N]⟩ : Shape).Idx) :
    FloatOps.dotGeneral D prec sched lhs rhs j = ∑ k : Fin K, lhs (ix2 (j 0) k) * rhs (ix2 k (j 1)) :=
  (Ideal.dotGeneral_apply D prec sched lhs rhs j).trans (plain_sum D hr hs hl0 hl1 hr0 hr1 lhs rhs j)

end Cert.LibPlainDot

end
-- ==== Proof.KernelPayload.lean ====
/-
  What the kernel body stores, read at one entry.

  The body multiplies its 5000 × 45 block of flat poses by the 45 × 45 table, subtracts the product from the
  block, squares, multiplies by the 45 × 15 table and takes square roots. Both products accumulate from zero and
  contract the left operand's second axis with the right operand's first, so at the exact values each entry of
  a product is a sum over the 45 contracted positions. Entry (r, k) of the stored value is therefore the square
  root of the sum over j of (x(r, j) − Σ_i x(r, i) · P(i, j))² · S(j, k).
-/
import proofs.«153917_j53008486367482_2_alg».proof.Proof.Gen.KernelIdeal.Skeleton
import proofs.«153917_j53008486367482_2_alg».proof.Proof.LibPlainDot
import proofs.«153917_j53008486367482_2_alg».proof.Proof.Spec
import Idealize.ShloMosaic.Lib.Pipeline.Value
import Idealize.ShloMosaic.Lib.ValueIdx

noncomputable section

namespace Cert.KernelIdeal.Payload

open Idealize.ShloMosaic Idealize.ShloMosaic.ValueIdx Cert.KernelIdeal Cert.KernelIdeal.Gen

/-- Entry (r, j) of the block's product with the parent-selection table: the sum over the contracted position. -/
theorem parents_apply (x0 : FVec Ideal S5000x45 .f32) (x1 : FVec Ideal S45x45 .f32) (r : Fin 5000) (j : Fin 45) :
    matmul dot_S5000x45_S45x45_S5000x45_1_0_0_1_n_n (some .fp32) x0 x1 (constant S5000x45 .f32 0x00000000#32) (ix2 r j)
      = ∑ i : Fin 45, x0 (ix2 r i) * x1 (ix2 i j) :=
  Cert.LibPlainDot.matmul_zero_plain dot_S5000x45_S45x45_S5000x45_1_0_0_1_n_n rfl rfl
    (fun _ _ => rfl) (fun _ _ => rfl) (fun _ _ => rfl) (fun _ _ => rfl) (some .fp32) x0 x1 (ix2 r j)

/-- Entry (r, k) of a block's product with the coordinate-summing table. -/
theorem sums_apply (y : FVec Ideal S5000x45 .f32) (x2 : FVec Ideal S45x15 .f32) (r : Fin 5000) (k : Fin 15) :
    matmul dot_S5000x45_S45x15_S5000x15_1_0_0_1_n_n (some .fp32) y x2 (constant S5000x15 .f32 0x00000000#32) (ix2 r k)
      = ∑ j : Fin 45, y (ix2 r j) * x2 (ix2 j k) :=
  Cert.LibPlainDot.matmul_zero_plain dot_S5000x45_S45x15_S5000x15_1_0_0_1_n_n rfl rfl
    (fun _ _ => rfl) (fun _ _ => rfl) (fun _ _ => rfl) (fun _ _ => rfl) (some .fp32) y x2 (ix2 r k)

/-- THE STORED VALUE AT (r, k): the square root of the table-weighted sum of squared differences between the
    block's row and its product with the parent-selection table. -/
theorem pay_apply (x0 : FVec Ideal S5000x45 .f32) (x1 : FVec Ideal S45x45 .f32) (x2 : FVec Ideal S45x15 .f32) (r : Fin 5000) (k : Fin 15) :
    k0_pay1 (F := Ideal) x0 x1 x2 (ix2 r k)
      = Ideal.sqrt (∑ j : Fin 45, ((x0 (ix2 r j) - ∑ i : Fin 45, x0 (ix2 r i) * x1 (ix2 i j))
          * (x0 (ix2 r j) - ∑ i : Fin 45, x0 (ix2 r i) * x1 (ix2 i j))) * x2 (ix2 j k)) := by
  unfold k0_pay1
  rw [shapeCast_self]
  refine congrArg Ideal.sqrt ?_
  refine (sums_apply _ x2 r k).trans ?_
  refine Finset.sum_congr rfl fun j _ => ?_
  refine congrArg (· * x2 (ix2 j k)) ?_
  show (x0 (ix2 r j) - matmul dot_S5000x45_S45x45_S5000x45_1_0_0_1_n_n (some .fp32) x0 x1 (constant S5000x45 .f32 0x00000000#32) (ix2 r j))
      * (x0 (ix2 r j) - matmul dot_S5000x45_S45x45_S5000x45_1_0_0_1_n_n (some .fp32) x0 x1 (constant S5000x45 .f32 0x00000000#32) (ix2 r j)) = _
  rw [parents_apply]

end Cert.KernelIdeal.Payload

end
-- ==== Proof.KernelBlock.lean ====
/-
  A block's stored value as limb lengths, over plain variables.

  If a 5000 × 45 block holds, in row r, pose b of the array laid out flat (coordinate d of joint k at position
  3k + d), and the two tables are the one-hot matrices of the specification, then entry (r, k) of what the body
  stores is the length of limb k of pose b: the two matrix products collapse by the one-hot law.
-/
import proofs.«153917_j53008486367482_2_alg».proof.Proof.KernelPayload
import proofs.«153917_j53008486367482_2_alg».proof.Proof.Spec

noncomputable section

namespace Cert.KernelIdeal.Payload

open Idealize.ShloMosaic Idealize.ShloMosaic.ValueIdx Cert.KernelIdeal Cert.KernelIdeal.Gen Cert.Limb

theorem block_value (x0 : FVec Ideal S5000x45 .f32) (x1 : FVec Ideal S45x45 .f32) (x2 : FVec Ideal S45x15 .f32)
    (X : (⟨3, ![500000, 15, 3]⟩ : Shape).Idx → EReal) (b : Fin 500000) (r : Fin 5000) (k : Fin 15)
    (h0 : ∀ j : Fin 45, x0 (ix2 r j) = X (ix3 b (jointOf j) (compOf j)))
    (h1 : ∀ i j : Fin 45, x1 (ix2 i j) = if i = src j then 1 else 0)
    (h2 : ∀ (j : Fin 45) (k : Fin 15), x2 (ix2 j k) = if jointOf j = k then 1 else 0) :
    k0_pay1 (F := Ideal) x0 x1 x2 (ix2 r k) = Ideal.sqrt (∑ d : Fin 3, dsq X b k d) := by
  rw [pay_apply]
  refine congrArg Ideal.sqrt ?_
  simp only [h0]
  exact onehot_limb (fun k d => X (ix3 b k d)) (fun i j => x1 (ix2 i j)) (fun j k => x2 (ix2 j k)) h1 h2 k

end Cert.KernelIdeal.Payload

end
-- ==== Proof.KernelArray.lean ====
/-
  The kernel's result array, from blocks to the whole.

  The grid has 100 points; point t works on rows 5000·t … 5000·t + 4999 of the flattened argument and of the
  result, and reads both tables whole. Row r of point t's input block is pose 5000·t + r laid out flat, and the
  two table blocks are the one-hot matrices, so what point t writes back is block t of ONE function of the
  argument array: the limb lengths, pose by pose. The 100 blocks tile the 500000 rows (row i lies in block
  i / 5000), so after the run the result array is that function everywhere. The program then appends a unit
  axis to it, which is the specification's array.
-/
import proofs.«153917_j53008486367482_2_alg».proof.Proof.Gen.KernelIdeal.Frame
import proofs.«153917_j53008486367482_2_alg».proof.Proof.KernelEntry
import proofs.«153917_j53008486367482_2_alg».proof.Proof.KernelBlock
import proofs.«153917_j53008486367482_2_alg».proof.Proof.Spec
import Idealize.ShloMosaic.Lib.Pipeline.Value
import Idealize.ShloMosaic.Lib.ValueIdx
import Idealize.ShloMosaic.Lib.StableHlo.Run

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Limb Cert.KernelIdeal.Entry Cert.KernelIdeal.Payload

variable (m : (ℓ : Loc nD τ sig) → Buf (Elt Ideal) ℓ) (ρ : Dev nD → PrngReg)

theorem zero_offsets : (![0, 0] : Fin 2 → Nat) = fun _ => 0 := funext fun a => by fin_cases a <;> rfl

/-- A grid point is below 100. -/
theorem point_lt (t : Fin cfg0.N) : t.val < 100 := by
  have h : t.val < grid0.N := t.isLt
  rw [N_0] at h; exact h

/-- Row r of point t's block is a row of the array. -/
theorem row_lt (t : Fin cfg0.N) (r : Fin 5000) : t.val * 5000 + r.val < 500000 := by
  have := point_lt t; omega

/-- The limb lengths as a two-dimensional array: at (b, k) the length of limb k of pose b. -/
def lengths (X : S500000x15x3.Idx → EReal) : S500000x15.Idx → EReal :=
  fun i => Ideal.sqrt (∑ d : Fin 3, dsq X (i 0) (i 1) d)

/-- Row r of point t's block of the flattened argument, at position j, is coordinate (j mod 3) of joint
    (j div 3) of pose 5000·t + r. -/
theorem block_row (c : Dev nD) (t : Fin cfg0.N) (r : Fin 5000) (j : Fin 45) :
    iblk m c 0 t (ix2 r j)
      = m ((c : Thread nD τ).loc main_arg0) (ix3 ⟨t.val * 5000 + r.val, row_lt t r⟩ (jointOf j) (compOf j)) := by
  show V m c main_v0 (((cfg0.win 0).blk t).view.emb (ix2 r j)) = _
  have he : ((cfg0.win 0).blk t).view.emb (ix2 r j) = ix2 ⟨t.val * 5000 + r.val, row_lt t r⟩ j := by
    obtain ⟨e0, e1, -⟩ := idx_facts t
    funext a; apply Fin.ext
    match a with
    | ⟨0, _⟩ => show win0_0.index t (0 : Fin 2) * 5000 + 1 * r.val = t.val * 5000 + r.val; omega
    | ⟨1, _⟩ => show win0_0.index t (1 : Fin 2) * 45 + 1 * j.val = j.val; omega
  rw [he, V_flat]
  refine shapeCast_apply _ _ _ _ ?_
  show (S500000x15x3.rowMajor (ix3 ⟨t.val * 5000 + r.val, row_lt t r⟩ (jointOf j) (compOf j))).val
    = (S500000x45.rowMajor (ix2 ⟨t.val * 5000 + r.val, row_lt t r⟩ j)).val
  rw [Shape.rowMajor_val_three, Shape.rowMajor_val_two]
  show ((t.val * 5000 + r.val) * 15 + j.val / 3) * 3 + j.val % 3 = (t.val * 5000 + r.val) * 45 + j.val
  omega

/-- Every point's block of the parent-selection table is the one-hot matrix. -/
theorem block_parentTable (c : Dev nD) (t : Fin cfg0.N) (i j : Fin 45) :
    iblk m c 1 t (ix2 i j) = if i = src j then (1 : EReal) else 0 := by
  show V m c main_cst (((cfg0.win 1).blk t).view.emb (ix2 i j)) = _
  have he : ((cfg0.win 1).blk t).view.emb (ix2 i j) = ix2 i j := by
    obtain ⟨-, -, e2, e3, -⟩ := idx_facts t
    funext a; apply Fin.ext
    match a with
    | ⟨0, _⟩ => show win0_1.index t (0 : Fin 2) * 45 + 1 * i.val = i.val; omega
    | ⟨1, _⟩ => show win0_1.index t (1 : Fin 2) * 45 + 1 * j.val = j.val; omega
  rw [he, V_parentTable]
  show Ideal.ofBits .f32 (lit0t (S45x45.rowMajor (ix2 i j)).val) = _
  rw [Shape.rowMajor_val_two]
  exact Tables.parent_value i j

/-- Every point's block of the coordinate-summing table is the one-hot matrix. -/
theorem block_jointTable (c : Dev nD) (t : Fin cfg0.N) (j : Fin 45) (k : Fin 15) :
    iblk m c 2 t (ix2 j k) = if jointOf j = k then (1 : EReal) else 0 := by
  show V m c main_cst_0 (((cfg0.win 2).blk t).view.emb (ix2 j k)) = _
  have he : ((cfg0.win 2).blk t).view.emb (ix2 j k) = ix2 j k := by
    obtain ⟨-, -, -, -, e4, e5, -⟩ := idx_facts t
    funext a; apply Fin.ext
    match a with
    | ⟨0, _⟩ => show win0_2.index t (0 : Fin 2) * 45 + 1 * j.val = j.val; omega
    | ⟨1, _⟩ => show win0_2.index t (1 : Fin 2) * 15 + 1 * k.val = k.val; omega
  rw [he, V_jointTable]
  show Ideal.ofBits .f32 (lit1t (S45x15.rowMajor (ix2 j k)).val) = _
  rw [Shape.rowMajor_val_two]
  exact Tables.joint_value j k

/-- WHAT POINT t WRITES BACK is block t of the limb lengths of the argument array. -/
theorem flushed_eq (c : Dev nD) (t : Fin cfg0.N) :
    (dats m 0 c).flushed 3 t
      = ((cfg0.win 3).blk t).view.read (Elt Ideal) (lengths (m ((c : Thread nD τ).loc main_arg0))) := by
  show (cfg0.win 3).cut (grid0.coords t) ((dats m 0 c).after 3 t) = _
  rw [after0_3]
  unfold out0_3
  rw [View.canon_unit_zero zero_offsets]
  simp only [View.ld_unit_zero (S := S5000x45) zero_offsets, View.ld_unit_zero (S := S45x45) zero_offsets,
    View.ld_unit_zero (S := S45x15) zero_offsets]
  funext y
  show k0_pay1 (iblk m c 0 t) (iblk m c 1 t) (iblk m c 2 t) y
    = lengths (m ((c : Thread nD τ).loc main_arg0)) (((cfg0.win 3).blk t).view.emb y)
  obtain ⟨r, k, rfl⟩ : ∃ (r : Fin 5000) (k : Fin 15), y = ix2 r k := ⟨y 0, y 1, eq_ix2 y⟩
  have he : ((cfg0.win 3).blk t).view.emb (ix2 r k) = ix2 ⟨t.val * 5000 + r.val, row_lt t r⟩ k := by
    obtain ⟨-, -, -, -, -, -, e6, e7⟩ := idx_facts t
    funext a; apply Fin.ext
    match a with
    | ⟨0, _⟩ => show win0_3.index t (0 : Fin 2) * 5000 + 1 * r.val = t.val * 5000 + r.val; omega
    | ⟨1, _⟩ => show win0_3.index t (1 : Fin 2) * 15 + 1 * k.val = k.val; omega
  rw [he]
  exact block_value (iblk m c 0 t) (iblk m c 1 t) (iblk m c 2 t) (m ((c : Thread nD τ).loc main_arg0))
    ⟨t.val * 5000 + r.val, row_lt t r⟩ r k (fun j => block_row m c t r j)
    (fun i j => block_parentTable m c t i j) (fun j k => block_jointTable m c t j k)

/-- An index of the result array is in point t's block iff each coordinate is in the block's range. -/
theorem mem_blk (t : Fin cfg0.N) (i : S500000x15.Idx) :
    i ∈ ((cfg0.win 3).blk t).view.set ↔ ∀ a : Fin 2, win0_3.index t a * S5000x15.size a ≤ (i a).val
      ∧ (i a).val < win0_3.index t a * S5000x15.size a + S5000x15.size a := by
  show i ∈ ((View.whole main_v1).slice (win0_3.rect t)).set ↔ _
  rw [View.set_slice_whole, Rect.mem_set_unit]
  exact Iff.rfl

/-- THE COVER: row i of the result array lies in the block of point i / 5000, which writes back. -/
theorem cover (i : S500000x15.Idx) :
    ∃ t : Fin cfg0.N, (cfg0.win 3).flush t = true ∧ i ∈ ((cfg0.win 3).blk t).view.set := by
  have hi0 : (i 0).val < 500000 := (i 0).isLt
  have hi1 : (i 1).val < 15 := (i 1).isLt
  have hq : (i 0).val / 5000 < grid0.N := by rw [N_0]; omega
  obtain ⟨-, -, -, -, -, -, e6, e7⟩ := idx_facts ⟨(i 0).val / 5000, hq⟩
  have e6' : win0_3.index ⟨(i 0).val / 5000, hq⟩ (0 : Fin 2) = (i 0).val / 5000 := e6
  refine ⟨⟨(i 0).val / 5000, hq⟩, flush0_3 _, ?_⟩
  rw [mem_blk]
  intro a
  match a with
  | ⟨0, _⟩ =>
    show win0_3.index ⟨(i 0).val / 5000, hq⟩ (0 : Fin 2) * 5000 ≤ (i 0).val
      ∧ (i 0).val < win0_3.index ⟨(i 0).val / 5000, hq⟩ (0 : Fin 2) * 5000 + 5000
    omega
  | ⟨1, _⟩ =>
    show win0_3.index ⟨(i 0).val / 5000, hq⟩ (1 : Fin 2) * 15 ≤ (i 1).val
      ∧ (i 1).val < win0_3.index ⟨(i 0).val / 5000, hq⟩ (1 : Fin 2) * 15 + 15
    omega

/-- THE RESULT ARRAY after the run: the limb lengths of the argument array, everywhere. -/
theorem final (c : Dev nD) :
    (dats m 0 c).arrAt 3 cfg0.N = lengths (m ((c : Thread nD τ).loc main_arg0)) :=
  (dats m 0 c).arrAt_eq_of_cover 3 (lengths (m ((c : Thread nD τ).loc main_arg0)))
    (fun t _ => flushed_eq m c t) cover

/-- A trailing unit axis: the result at (b, k, z) reads its operand at (b, k). -/
theorem unit_axis_apply {α : Type} (v : S500000x15.Idx → α) (b : Fin 500000) (k : Fin 15) (z : Fin 1) :
    broadcastInDim S500000x15x1 ![0, 1] bcast_S500000x15_S500000x15x1_0_1 v (ix3 b k z) = v (ix2 b k) := by
  refine broadcastInDim_apply _ _ _ _ (ix2 b k) ?_
  intro a
  match a with
  | ⟨0, _⟩ => rfl
  | ⟨1, _⟩ => rfl

/-- Appending a unit axis to the two-dimensional lengths gives the specification's array. -/
theorem lengths_unit_axis (X : S500000x15x3.Idx → EReal) :
    broadcastInDim S500000x15x1 ![0, 1] bcast_S500000x15_S500000x15x1_0_1 (lengths X) = limbs X := by
  funext i
  obtain ⟨b, k, z, rfl⟩ : ∃ (b : Fin 500000) (k : Fin 15) (z : Fin 1), i = ix3 b k z := ⟨i 0, i 1, i 2, eq_ix3 i⟩
  exact (unit_axis_apply (lengths X) b k z).trans rfl

/-- After the region the pipeline's result array is read back as the lengths. -/
theorem result_array (c : Dev nD) :
    Pipeline.withArrays (cfgs 0).spec c (V0 m c) (fun w => (dats m 0 c).arrAt w (cfgs 0).N)
      (Proc.devRef .tc main_v1) = lengths (m ((c : Thread nD τ).loc main_arg0)) :=
  (Pipeline.withArrays_arr spec0 launch0.win.arr_inj c (V0 m c) (fun w => (dats m 0 c).arrAt w cfg0.N) 3).trans (final m c)

/-- The program's result: the result array with a unit axis appended, which is the specification's array. -/
theorem tail (c : Dev nD) :
    Pipeline.afterTail₀ cfgs (dats m) 0 (V0 m) [hostOps1] c main_v2
      = limbs (m ((c : Thread nD τ).loc main_arg0)) := by
  unfold Pipeline.afterTail₀
  show StableHlo.after hostOps1 _ (Proc.devRef .tc main_v2) = _
  after_results
  rw [result_array]
  exact lengths_unit_axis _

/-- THE KERNEL'S RUN, READ: every weakly fair execution of the program terminates with its result at the limb
    lengths of the argument array, and the argument array as launched. -/
theorem run : θ_run defs (onTc (τ := τ) (main (F := Ideal))) ⟨m, fun _ => 0, ρ⟩ fun r => ∀ c : Dev nD,
      r.2.mem ((c.tc : Thread nD τ).loc main_v2) = limbs (m ((c.tc : Thread nD τ).loc main_arg0))
      ∧ r.2.mem ((c.tc : Thread nD τ).loc main_arg0) = m ((c.tc : Thread nD τ).loc main_arg0) :=
  (θ_run defs _ _).mono (fun _ h c =>
      ⟨((h c).2 main_v2 (Pipeline.mem_restRefs_of main_v2 (by decide) (by decide))).trans (tail m c),
        ((h c).2 main_arg0 (Pipeline.mem_restRefs_of main_arg0 (by decide) (by decide))).trans (W_main_arg0 m (dats m) c)⟩)
    (run_main m ρ)

end Cert.KernelIdeal.Whole

end
-- ==== Proof.RefValue.lean ====
/-
  The reference program's run, and the value it computes.

  The reference takes a pose array x : [500000, 15, 3], gathers for every joint the row of its parent joint (a table of
  fifteen joint numbers, first normalised as a negative index would be), subtracts, squares, sums the three coordinates,
  takes the square root and gives the result a trailing unit axis. Part one reads the program as the list of its sixteen
  host operations and states its run with the result at their composed pure term of the argument. Part two reads that
  term at an index, one operation at a time: the result at (b, k, 0) is the square root of the sum over the three
  coordinates d of the squared difference between x at (b, k, d) and x at (b, parent of k, d). The only law of the
  extended reals used is 0 + s = s.
-/
import proofs.«153917_j53008486367482_2_alg».proof.Proof.Gen.ReferenceIdeal
import proofs.«153917_j53008486367482_2_alg».proof.Proof.Spec
import Idealize.ShloMosaic.Lib.StableHlo.Run
import Idealize.ShloMosaic.Lib.ValueIdx
import Idealize.ShloMosaic.Lib.IdealHost
import Idealize.ShloMosaic.Lib.Pipeline.Value
import Idealize.ShloMosaic.PureOps.Ideal.Laws

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx

/-! ## Part one: the run -/

section Run
variable {F : FTy → Type} [FloatOps F]

/-- @main's 16 operations, in order. -/
abbrev ops : List (HloOp τ sig (Elt F)) :=
  [ nullary main_c (fun i => lit0 (S15.rowMajor i)),
    nullary main_c_0 (constantI S_ 32 0#32),
    unary main_c_0 main_v0 (broadcastInDim S15 ![] bcast_S_S15 : (⟨S_, .i32⟩ : BufTy).Contents (Elt F) → (⟨S15, .i32⟩ : BufTy).Contents (Elt F)),
    binary main_c main_v0 main_v1 (cmpi .slt : (⟨S15, .i32⟩ : BufTy).Contents (Elt F) → (⟨S15, .i32⟩ : BufTy).Contents (Elt F) → (⟨S15, .i1⟩ : BufTy).Contents (Elt F)),
    nullary main_c_1 (constantI S_ 32 15#32),
    unary main_c_1 main_v2 (broadcastInDim S15 ![] bcast_S_S15 : (⟨S_, .i32⟩ : BufTy).Contents (Elt F) → (⟨S15, .i32⟩ : BufTy).Contents (Elt F)),
    binary main_c main_v2 main_v3 (addi : (⟨S15, .i32⟩ : BufTy).Contents (Elt F) → (⟨S15, .i32⟩ : BufTy).Contents (Elt F) → (⟨S15, .i32⟩ : BufTy).Contents (Elt F)),
    ternary main_v1 main_v3 main_c main_v4 (select : (⟨S15, .i1⟩ : BufTy).Contents (Elt F) → (⟨S15, .i32⟩ : BufTy).Contents (Elt F) → (⟨S15, .i32⟩ : BufTy).Contents (Elt F) → (⟨S15, .i32⟩ : BufTy).Contents (Elt F)),
    unary main_v4 main_v5 (broadcastInDim S15x1 ![0] bcast_S15_S15x1_0 : (⟨S15, .i32⟩ : BufTy).Contents (Elt F) → (⟨S15x1, .i32⟩ : BufTy).Contents (Elt F)),
    binary main_arg0 main_v5 main_v6 ((fun x i => Host.gather gather_S500000x15x3_S15x1_S500000x15x3_02_1_n_n_1_1_50000013 x i) : (⟨S500000x15x3, .f32⟩ : BufTy).Contents (Elt F) → (⟨S15x1, .i32⟩ : BufTy).Contents (Elt F) → (⟨S500000x15x3, .f32⟩ : BufTy).Contents (Elt F)),
    binary main_arg0 main_v6 main_v7 (subf : (⟨S500000x15x3, .f32⟩ : BufTy).Contents (Elt F) → (⟨S500000x15x3, .f32⟩ : BufTy).Contents (Elt F) → (⟨S500000x15x3, .f32⟩ : BufTy).Contents (Elt F)),
    binary main_v7 main_v7 main_v8 (mulf : (⟨S500000x15x3, .f32⟩ : BufTy).Contents (Elt F) → (⟨S500000x15x3, .f32⟩ : BufTy).Contents (Elt F) → (⟨S500000x15x3, .f32⟩ : BufTy).Contents (Elt F)),
    nullary main_cst (constant S_ .f32 0x00000000#32),
    binary main_v8 main_cst main_v9 ((fun x v => Host.reduceAdd x v reducesTo_S500000x15x3_S500000x15_d2 h_S_) : (⟨S500000x15x3, .f32⟩ : BufTy).Contents (Elt F) → (⟨S_, .f32⟩ : BufTy).Contents (Elt F) → (⟨S500000x15, .f32⟩ : BufTy).Contents (Elt F)),
    unary main_v9 main_v10 (Host.sqrt : (⟨S500000x15, .f32⟩ : BufTy).Contents (Elt F) → (⟨S500000x15, .f32⟩ : BufTy).Contents (Elt F)),
    unary main_v10 main_v11 (broadcastInDim S500000x15x1 ![0, 1] bcast_S500000x15_S500000x15x1_0_1 : (⟨S500000x15, .f32⟩ : BufTy).Contents (Elt F) → (⟨S500000x15x1, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
   binary_bufs_sub .., ternary_bufs_sub .., unary_bufs_sub .., binary_bufs_sub .., binary_bufs_sub .., binary_bufs_sub ..,
   nullary_bufs_sub .., binary_bufs_sub .., unary_bufs_sub .., unary_bufs_sub ..⟩

end Run

/-! ### The composed term -/

/-- The table of parent joints as the program holds it: fifteen words. -/
def idxRaw : IVec S15 32 := fun i => lit0 (S15.rowMajor i)

/-- The table normalised as an index that may be negative is: a word below zero has fifteen added. -/
def idxNorm : IVec S15 32 :=
  select (cmpi .slt idxRaw (broadcastInDim S15 ![] bcast_S_S15 (constantI S_ 32 0#32)))
    (addi idxRaw (broadcastInDim S15 ![] bcast_S_S15 (constantI S_ 32 15#32))) idxRaw

/-- The normalised table with a trailing unit axis: the gather's start indices. -/
def idxCol : IVec S15x1 32 := broadcastInDim S15x1 ![0] bcast_S15_S15x1_0 idxNorm

/-- Every joint's parent row: the gather of the pose array at the table. -/
def parents (x : FVec Ideal S500000x15x3 .f32) : FVec Ideal S500000x15x3 .f32 :=
  Host.gather gather_S500000x15x3_S15x1_S500000x15x3_02_1_n_n_1_1_50000013 x idxCol

/-- The squared coordinate differences between every joint and its parent. -/
def sqDiff (x : FVec Ideal S500000x15x3 .f32) : FVec Ideal S500000x15x3 .f32 :=
  mulf (subf x (parents x)) (subf x (parents x))

/-- Their sums over the three coordinates, from the initial value zero. -/
def sumSq (x : FVec Ideal S500000x15x3 .f32) : FVec Ideal S500000x15 .f32 :=
  Host.reduceAdd (F := Ideal) (sqDiff x) (constant (F := Ideal) S_ .f32 0x00000000#32) reducesTo_S500000x15x3_S500000x15_d2 h_S_

/-- The operations' composed term of the argument: the square roots of those sums, with a trailing unit axis. -/
def refTerm (x : FVec Ideal S500000x15x3 .f32) : FVec Ideal S500000x15x1 .f32 :=
  broadcastInDim S500000x15x1 ![0, 1] bcast_S500000x15_S500000x15x1_0_1 (Host.sqrt (F := Ideal) (sumSq x))

/-- On every device, from any memory with zero counters: every weakly fair execution of @main terminates with the
    result at the operations' composed term of the argument and the argument unchanged. -/
theorem run_term (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = refTerm (m ((c.tc : Thread nD τ).loc main_arg0))
      ∧ r.2.mem ((c.tc : Thread nD τ).loc main_arg0) = m ((c.tc : Thread nD τ).loc main_arg0) :=
  (θ_run defs _ _).mono (fun _ h c => ⟨(h c main_v11).trans (by after_results; rfl),
      (h c main_arg0).trans (by after_results)⟩)
    (run_seq scopedRefs_eq scopedSems_eq defs main (fun _ => ops) main_eq (fun _ => ops_sub) m ρ)

/-! ## Part two: the term read at an index -/

/-- The gather's dimension numbers: offset axes 0 and 2, operand axis 1 collapsed and named by the start index, the
    index vector on the start indices' axis 1, slices [500000, 1, 3]. -/
abbrev G : GatherDims S500000x15x3 S15x1 S500000x15x3 := gather_S500000x15x3_S15x1_S500000x15x3_02_1_n_n_1_1_50000013

/-- The start indices at (k, 0) are the normalised table at k. -/
theorem idxCol_apply (k : Fin 15) (z : Fin 1) : idxCol (ix2 k z) = idxNorm (ix1 k) := by
  unfold idxCol
  refine broadcastInDim_apply _ _ _ _ (ix1 k) ?_
  intro a
  match a with
  | ⟨0, _⟩ => rfl

/-- THE TABLE: each normalised word, read signed and clamped into [0, 14], is the parent joint. -/
theorem idxNorm_par : ∀ k : Fin 15, min (idxNorm (ix1 k)).toInt.toNat 14 = (Cert.Limb.par k).val := by
  decide

/-- Operand axes 0 and 2 are not named by the start index: their slice starts at 0. -/
theorem start_off (j : S500000x15x3.Idx) {w : Nat} (idx : IVec S15x1 w) (a : Fin 3) (ha : a ≠ 1) :
    G.start j idx a = 0 := by
  unfold GatherDims.start
  rw [dif_neg (show a ∉ G.startIndexMap from fun h => ha (List.mem_singleton.mp h))]

/-- Operand axis 0 is the first offset axis: it reads the result's coordinate 0. -/
theorem offCoord0 (j : S500000x15x3.Idx) : G.offCoord j (0 : Fin 3) = (j (0 : Fin 3)).val := by
  unfold GatherDims.offCoord
  rw [dif_pos (by decide : (0 : Fin 3) ∈ G.sKept)]
  exact congrArg (fun a : Fin 3 => (j a).val) (by decide)

/-- Operand axis 2 is the second offset axis: it reads the result's coordinate 2. -/
theorem offCoord2 (j : S500000x15x3.Idx) : G.offCoord j (2 : Fin 3) = (j (2 : Fin 3)).val := by
  unfold GatherDims.offCoord
  rw [dif_pos (by decide : (2 : Fin 3) ∈ G.sKept)]
  exact congrArg (fun a : Fin 3 => (j a).val) (by decide)

/-- Operand axis 1 is collapsed: no offset coordinate. -/
theorem offCoord1 (j : S500000x15x3.Idx) : G.offCoord j (1 : Fin 3) = 0 :=
  GatherDims.offCoord_eq_zero _ _ _ (by decide)

/-- Operand axis 1 starts at the start index at (k, 0), read signed and clamped into [0, 14]. -/
theorem start1 {w : Nat} (idx : IVec S15x1 w) (b : Fin 500000) (k : Fin 15) (d : Fin 3) :
    G.start (ix3 b k d) idx (1 : Fin 3) = min (idx (ix2 k (0 : Fin 1))).toInt.toNat 14 := by
  unfold GatherDims.start
  rw [dif_pos (show (1 : Fin 3) ∈ G.startIndexMap from List.mem_singleton.mpr rfl)]
  have hsi : G.siIdx (ix3 b k d) ⟨List.idxOf (1 : Fin 3) G.startIndexMap,
      List.idxOf_lt_length_iff.2 (List.mem_singleton.mpr rfl)⟩ = ix2 k (0 : Fin 1) := by
    funext c; refine Fin.ext ?_
    match c with
    | ⟨0, _⟩ => rfl
    | ⟨1, _⟩ => rfl
  rw [hsi]
  rfl

/-- THE GATHER READ AT (b, k, d): the operand at (b, p, d), p the start index at (k, 0) read signed and clamped into
    [0, 14]. The batch axis of the result is axis 1; the operand's axis 1 is collapsed and is the one axis the start
    index names; axes 0 and 2 are offset axes, read whole. -/
theorem gather_apply {α : Type} {w : Nat} (x : S500000x15x3.Idx → α) (idx : IVec S15x1 w)
    (b : Fin 500000) (k : Fin 15) (d : Fin 3) :
    Host.gather G x idx (ix3 b k d)
      = x (ix3 b ⟨min (idx (ix2 k (0 : Fin 1))).toInt.toNat 14, by omega⟩ d) := by
  unfold Host.gather
  congr 1
  funext a
  refine Fin.ext ?_
  show G.start (ix3 b k d) idx a + G.batchCoord (ix3 b k d) a + G.offCoord (ix3 b k d) a = _
  rw [GatherDims.batchCoord_eq_zero _ _ _ List.not_mem_nil, Nat.add_zero]
  match a with
  | ⟨0, _⟩ => exact (congrArg₂ (· + ·) (start_off _ idx 0 (by decide)) (offCoord0 _)).trans (Nat.zero_add _)
  | ⟨1, _⟩ => exact (congrArg₂ (· + ·) (start1 idx b k d) (offCoord1 _)).trans (Nat.add_zero _)
  | ⟨2, _⟩ => exact (congrArg₂ (· + ·) (start_off _ idx 2 (by decide)) (offCoord2 _)).trans (Nat.zero_add _)

/-- The parent rows at (b, k, d): the pose array at (b, parent of k, d). -/
theorem parents_apply (x : FVec Ideal S500000x15x3 .f32) (b : Fin 500000) (k : Fin 15) (d : Fin 3) :
    parents x (ix3 b k d) = x (ix3 b (Cert.Limb.par k) d) := by
  unfold parents
  refine (gather_apply x idxCol b k d).trans (congrArg (fun p : Fin 15 => x (ix3 b p d)) (Fin.ext ?_))
  show min (idxCol (ix2 k (0 : Fin 1))).toInt.toNat 14 = (Cert.Limb.par k).val
  rw [idxCol_apply]
  exact idxNorm_par k

/-- The squared differences at (b, k, d). -/
theorem sqDiff_apply (x : FVec Ideal S500000x15x3 .f32) (b : Fin 500000) (k : Fin 15) (d : Fin 3) :
    sqDiff x (ix3 b k d) = Cert.Limb.dsq x b k d := by
  unfold sqDiff Cert.Limb.dsq
  rw [mulf_apply, subf_apply, parents_apply]

/-- The host's sum over the last axis from the initial value zero, at (b, k): the sum over the three coordinates. -/
theorem reduce_apply (v : FVec Ideal S500000x15x3 .f32) (b : Fin 500000) (k : Fin 15) :
    Host.reduceAdd (F := Ideal) v (constant (F := Ideal) S_ .f32 0x00000000#32) reducesTo_S500000x15x3_S500000x15_d2 h_S_ (ix2 b k)
      = ∑ d : Fin 3, v (ix3 b k d) := by
  have h : S500000x15x3.Reduces [2] S500000x15 := by decide
  rw [hostReduceAdd_apply]
  refine (Ideal.hostReduceAdd_single reducesTo_S500000x15x3_S500000x15_d2 h v _ (ix2 b k)).trans ?_
  rw [constant_apply, Ideal.ofBits_zero_f32, zero_add]
  refine Finset.sum_congr rfl fun d _ => congrArg v ?_
  funext c; refine Fin.ext ?_
  match c with
  | ⟨0, _⟩ => rfl
  | ⟨1, _⟩ => rfl
  | ⟨2, _⟩ => rfl

/-- The sums at (b, k). -/
theorem sumSq_apply (x : FVec Ideal S500000x15x3 .f32) (b : Fin 500000) (k : Fin 15) :
    sumSq x (ix2 b k) = ∑ d : Fin 3, Cert.Limb.dsq x b k d := by
  unfold sumSq
  rw [reduce_apply]
  exact Finset.sum_congr rfl fun d _ => sqDiff_apply x b k d

/-- The trailing unit axis: the result at (b, k, z) reads its operand at (b, k). -/
theorem bcast_apply {α : Type} (v : S500000x15.Idx → α) (b : Fin 500000) (k : Fin 15) (z : Fin 1) :
    broadcastInDim S500000x15x1 ![0, 1] bcast_S500000x15_S500000x15x1_0_1 v (ix3 b k z) = v (ix2 b k) := by
  refine broadcastInDim_apply _ _ _ _ (ix2 b k) ?_
  intro a
  match a with
  | ⟨0, _⟩ => rfl
  | ⟨1, _⟩ => rfl

/-- The host's square root at an index is the extended reals' square root of the element. -/
theorem hostSqrt_apply {s : Shape} {φ : FTy} (v : FVec Ideal s φ) (i : s.Idx) :
    Host.sqrt (F := Ideal) v i = Ideal.sqrt (v i) := rfl

/-- THE VALUE: the operations' composed term is the limb lengths of every pose. -/
theorem refTerm_eq (x : FVec Ideal S500000x15x3 .f32) : refTerm x = Cert.Limb.limbs x := by
  funext i
  obtain ⟨b, k, z, rfl⟩ : ∃ (b : Fin 500000) (k : Fin 15) (z : Fin 1), i = ix3 b k z := ⟨i 0, i 1, i 2, eq_ix3 i⟩
  rw [Cert.Limb.limbs_apply]
  unfold refTerm
  rw [bcast_apply]
  rw [hostSqrt_apply, sumSq_apply]

/-! ## The run, at the limb lengths -/

/-- On every device, from any memory with zero counters: every weakly fair execution of @main terminates with the
    result holding the limb lengths of the argument's poses, and the argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v11) = Cert.Limb.limbs (m ((c.tc : Thread nD τ).loc main_arg0))
      ∧ r.2.mem ((c.tc : Thread nD τ).loc main_arg0) = m ((c.tc : Thread nD τ).loc main_arg0) :=
  (θ_run defs _ _).mono (fun _ h c => ⟨(h c).1.trans (refTerm_eq _), (h c).2⟩) (run_term m ρ)

end Cert.ReferenceIdeal.RefValue

end
-- ==== Proof.lean ====
/-
  Limb lengths of a 15-joint skeleton: a kernel that computes them by two one-hot matrix products against a
  reference that gathers each joint's parent.

  Both programs take poses x : [500000, 15, 3] and return, at (b, k, 0), the distance between joint k of pose b
  and its parent joint: the square root of the sum over the three coordinates d of (x(b, k, d) − x(b, par k, d))².

  The reference gathers the parent rows with a constant table of joint numbers, subtracts, squares, sums the last
  axis from zero and takes square roots. The kernel flattens a pose to a row of 45 numbers and works on blocks of
  5000 rows: it multiplies a block by a 45 × 45 table whose only nonzero entries are ones that move the parent's
  coordinate into each position, subtracts, squares, and multiplies by a 45 × 15 table whose ones add up the three
  positions of each joint. At the exact values a product with zero is zero and a product with one is the factor
  itself, for every extended real, so each matrix product is the entry or the three entries its ones select, and the
  kernel's sum of 45 terms is the reference's sum of three. The square root is the same function on both sides.
  Nothing here needs the inputs to be finite.

  The frames of the two kernel programs are cited from the frame modules imported below; the reference's frame is
  its run with the result dropped. No operation was rewritten when the kernel was idealized, so the idealization claim is the trivial one.
-/
import proofs.«153917_j53008486367482_2_alg».proof.Defs
import proofs.«153917_j53008486367482_2_alg».proof.Proof.Gen.Kernel
import proofs.«153917_j53008486367482_2_alg».proof.Proof.Gen.Kernel.Skeleton
import proofs.«153917_j53008486367482_2_alg».proof.Proof.Gen.Kernel.Launch
import proofs.«153917_j53008486367482_2_alg».proof.Proof.Gen.Kernel.Points
import proofs.«153917_j53008486367482_2_alg».proof.Proof.Gen.Kernel.Frame
import proofs.«153917_j53008486367482_2_alg».proof.Proof.Gen.KernelIdeal
import proofs.«153917_j53008486367482_2_alg».proof.Proof.Gen.KernelIdeal.Skeleton
import proofs.«153917_j53008486367482_2_alg».proof.Proof.Gen.KernelIdeal.Launch
import proofs.«153917_j53008486367482_2_alg».proof.Proof.Gen.KernelIdeal.Points
import proofs.«153917_j53008486367482_2_alg».proof.Proof.Gen.KernelIdeal.Frame
import proofs.«153917_j53008486367482_2_alg».proof.Proof.Gen.ReferenceIdeal
import proofs.«153917_j53008486367482_2_alg».proof.Proof.Gen.Pre_finite_inputs
import proofs.«153917_j53008486367482_2_alg».proof.Proof.KernelArray
import proofs.«153917_j53008486367482_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument as launched. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The reference runs and leaves its argument as launched: its run, with the result dropped. -/
theorem frame_referenceIdeal : Cert.frame_ReferenceIdeal := fun m ρ _ =>
  (θ_run Cert.ReferenceIdeal.defs _ _).mono (fun _ h c => (h c).2) (Cert.ReferenceIdeal.RefValue.run m ρ)

/-- From memories agreeing on the pose array both programs end with the limb lengths of that array. -/
theorem algebraic : Cert.algebraic_KernelIdeal_ReferenceIdeal := by
  intro m ρ m' ρ' _ hagree
  refine ⟨fun c => Cert.Limb.limbs (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.RefValue.run m' ρ')
  rw [hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
